-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x2048 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : FVec F S1024x768 .f32) (main_arg3 : FVec F S1024 .f32) (main_arg4 : FVec F S1x2048 .f32) (main_arg5 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S768x1024 : Shape := ⟨2, ![768, 1024]⟩
abbrev S1x1024 : Shape := ⟨2, ![1, 1024]⟩
abbrev S1x1 : Shape := ⟨2, ![1, 1]⟩
abbrev S16384x1 : Shape := ⟨2, ![16384, 1]⟩
abbrev S1024x1 : Shape := ⟨2, ![1024, 1]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S768x1024, .f32⟩
  | .hbm, ⟨7, _⟩ => ⟨S768x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1, .f32⟩
  | .hbm, ⟨12, _⟩ => ⟨S16384x1, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S768x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1024x1, .f32⟩
  | .local _ .vmem, ⟨10, _⟩ => ⟨S1024x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x768_S768x1024_1_0 : S1024x768.Transposes [1, 0] S768x1024
  bitsLt_bf16_f32 : FTy.bits .bf16 < FTy.bits .f32
  shapeCasts_S1024_S1x1024 : S1024.ShapeCasts S1x1024
  slices_S1x2048_S1x1024_0_0 : S1x2048.Slices ![0, 0] S1x1024
  slices_S1x2048_S1x1024_0_1024 : S1x2048.Slices ![0, 1024] S1x1024
  shapeCasts_S1_S1x1 : S1.ShapeCasts S1x1
  inb_S1024x768_S1024x768_0_0 : ∀ a, (![0, 0] : Fin 2 → Nat) a + S1024x768.size a ≤ S1024x768.size a
  h_S1024x768 : 0 < S1024x768.numel
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .bf16 = 32 ∨ (Rect.block (s := S768x1024) S768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S16384x1.size a
  hwx0_7 : ∀ i : grid0.Coords, EltTy.bits .f32 = 32 ∨ (Rect.block (s := S16384x1) S1024x1.size (cc0_transform_7 i) (hinb0_7 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S16384x1024 : Shape := ⟨2, ![16384, 1024]⟩
abbrev S1x1024 : Shape := ⟨2, ![1, 1024]⟩
abbrev S16384x2048 : Shape := ⟨2, ![16384, 2048]⟩
abbrev S_ : Shape := ⟨0, ![]⟩
abbrev S16384x1 : Shape := ⟨2, ![16384, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  concatenates_S16384x1024_S16384x1024_S16384x2048_d1 : Shape.Concatenates [S16384x1024, S16384x1024] S16384x2048 1
  bcast_S_S16384x2048 : S_.BroadcastsInDim S16384x2048 (![] : Fin 0 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x768_S1024x768_S16384x1024_1_1_0_0_n_n_wf : DotDims.WF S16384x768 S1024x768 S16384x1024 [1] [1] [0] [0] [] []
  dot_S16384x2048_S1x2048_S16384x1_1_1_0_0_n_n_wf : DotDims.WF S16384x2048 S1x2048 S16384x1 [1] [1] [0] [0] [] []

variable [Facts₀]

def dot_S16384x768_S1024x768_S16384x1024_1_1_0_0_n_n : DotDims S16384x768 S1024x768 S16384x1024 where
  lhsContracting := [1]
  rhsContracting := [1]
  lhsNonContracting := [0]
  rhsNonContracting := [0]
  lhsBatch := []
  rhsBatch := []
  wf := dot_S16384x768_S1024x768_S16384x1024_1_1_0_0_n_n_wf
def dot_S16384x2048_S1x2048_S16384x1_1_1_0_0_n_n : DotDims S16384x2048 S1x2048 S16384x1 where
  lhsContracting := [1]
  rhsContracting := [1]
  lhsNonContracting := [0]
  rhsNonContracting := [0]
  lhsBatch := []
  rhsBatch := []
  wf := dot_S16384x2048_S1x2048_S16384x1_1_1_0_0_n_n_wf

class Facts : Prop extends Facts₀ where

variable [Facts]
-- ==== Proof.Spec.lean ====
/-
  The function both programs compute, over the extended reals, written once over the six argument arrays.

  Two perspectives `X0, X1 : [16384, 768]` go through the same affine layer `W1 : [1024, 768]`, `b1 : [1024]`:
  `hid X r h = Σ_f X(r, f) · W1(h, f) + b1(h)`. Each hidden value is clipped to `[0, 1]` and squared (`clipSq`). The output layer
  `W2 : [1, 2048]` weighs the first perspective's 1024 hidden values with its columns `0 … 1023` and the second's with
  its columns `1024 … 2047`; the bias `b2 : [1]` is added and the logistic function applied:
  `G(r, 0) = logistic ((Σ_h clipSq (hid X0 r h) · W2(0, h) + Σ_h clipSq (hid X1 r h) · W2(0, 1024 + h)) + b2(0))`.

  One program forms the two half sums, the other one sum over the 2048 columns of the two hidden rows laid side by side; the
  law between them is that a sum over `Fin 2048` is the sum over its first 1024 positions plus the sum over its last 1024
  (`sum_halves`), which holds in any commutative additive monoid — on the extended reals too, infinities included.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- Column `h` of the first half of a row of 2048. -/
abbrev lo (h : Fin 1024) : Fin 2048 := ⟨h.val, by omega⟩

/-- Column `h` of the second half of a row of 2048: position `1024 + h`. -/
abbrev hi (h : Fin 1024) : Fin 2048 := ⟨1024 + h.val, by omega⟩

/-- A sum over 2048 positions is the sum over the first 1024 plus the sum over the last 1024. -/
theorem sum_halves {M : Type*} [AddCommMonoid M] (F : Fin 2048 → M) :
    ∑ k : Fin 2048, F k = (∑ h : Fin 1024, F (lo h)) + ∑ h : Fin 1024, F (hi h) :=
  Fin.sum_univ_add (a := 1024) (b := 1024) F

/-- The affine layer on one perspective: row `r` of `X` against row `h` of `W1`, plus the bias. -/
def hid (X : FVec Ideal ⟨2, ![16384, 768]⟩ .f32) (W1 : FVec Ideal ⟨2, ![1024, 768]⟩ .f32) (b1 : FVec Ideal ⟨1, ![1024]⟩ .f32)
    (r : Fin 16384) (h : Fin 1024) : EReal :=
  (∑ f : Fin 768, X (ix2 r f) * W1 (ix2 h f)) + b1 (ix1 h)

/-- The activation: clip to `[0, 1]` (the two bounds as the float words the programs spell), then square. -/
def clipSq (z : EReal) : EReal :=
  min (Ideal.ofBits .f32 0x3F800000#32) (max (Ideal.ofBits .f32 0x00000000#32) z)
    * min (Ideal.ofBits .f32 0x3F800000#32) (max (Ideal.ofBits .f32 0x00000000#32) z)

/-- The logistic function's argument for row `r`: the two perspectives' weighted sums, then the output bias. -/
def score (X0 X1 : FVec Ideal ⟨2, ![16384, 768]⟩ .f32) (W1 : FVec Ideal ⟨2, ![1024, 768]⟩ .f32) (b1 : FVec Ideal ⟨1, ![1024]⟩ .f32)
    (W2 : FVec Ideal ⟨2, ![1, 2048]⟩ .f32) (b2 : FVec Ideal ⟨1, ![1]⟩ .f32) (r : Fin 16384) : EReal :=
  ((∑ h : Fin 1024, clipSq (hid X0 W1 b1 r h) * W2 (ix2 (0 : Fin 1) (lo h)))
    + ∑ h : Fin 1024, clipSq (hid X1 W1 b1 r h) * W2 (ix2 (0 : Fin 1) (hi h)))
    + b2 (ix1 (0 : Fin 1))

/-- The result array `[16384, 1]`: the logistic function of each row's score. -/
def G (X0 X1 : FVec Ideal ⟨2, ![16384, 768]⟩ .f32) (W1 : FVec Ideal ⟨2, ![1024, 768]⟩ .f32) (b1 : FVec Ideal ⟨1, ![1024]⟩ .f32)
    (W2 : FVec Ideal ⟨2, ![1, 2048]⟩ .f32) (b2 : FVec Ideal ⟨1, ![1]⟩ .f32) : FVec Ideal ⟨2, ![16384, 1]⟩ .f32 :=
  fun i => Ideal.logistic (score X0 X1 W1 b1 W2 b2 ⟨(i 0).val, (i 0).isLt⟩)

/-- `G` at an index given by its coordinates. -/
theorem G_apply (X0 X1 : FVec Ideal ⟨2, ![16384, 768]⟩ .f32) (W1 : FVec Ideal ⟨2, ![1024, 768]⟩ .f32) (b1 : FVec Ideal ⟨1, ![1024]⟩ .f32)
    (W2 : FVec Ideal ⟨2, ![1, 2048]⟩ .f32) (b2 : FVec Ideal ⟨1, ![1]⟩ .f32) (r : Fin 16384) (u : Fin 1) :
    G X0 X1 W1 b1 W2 b2 (ix2 r u) = Ideal.logistic (score X0 X1 W1 b1 W2 b2 r) := rfl

end Cert.Spec

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KernelPay.lean ====
/-
  What the kernel's body computes from the blocks it loads, read index by index over the extended reals.

  The body loads a block `P` of 1024 rows of one perspective (`[1024, 768]`), the transposed weights `Wt : [768, 1024]`,
  and three rows `[1, 1024]`: the hidden bias `B`, and the two halves `Wa`, `Wb` of the output weights. For each
  perspective it forms `P · Wt + B` (a matrix product into a zero accumulator, the bias row repeated down the rows),
  clips to `[0, 1]`, squares, multiplies by the weight row and sums along each row; the two row sums, kept as columns
  `[1024, 1]`, are added. At `(p, 0)` that is
  `Σ_h clipSq (Σ_f P0(p, f) · Wt(f, h) + B(0, h)) · Wa(0, h) + Σ_h clipSq (Σ_f P1(p, f) · Wt(f, h) + B(0, h)) · Wb(0, h)`.
  The narrowing of the operands to bf16 is the identity on the extended reals.
-/
import proofs.«125729_j82386062672602_2_alg».proof.Proof.Gen.KernelIdeal.Skeleton
import proofs.«125729_j82386062672602_2_alg».proof.Proof.Spec
import proofs.«125729_j82386062672602_2_alg».proof.Proof.LibColumns
import proofs.«125729_j82386062672602_2_alg».proof.Proof.LibMatmulNN
import Idealize.ShloMosaic.Lib.ValueLayout
import Idealize.ShloMosaic.Lib.Pipeline.Value

noncomputable section

open scoped BigOperators

namespace Cert.KernelIdeal.Pay

open Cert.KernelIdeal Cert.KernelIdeal.Gen
open Idealize.ShloMosaic Idealize.ShloMosaic.ValueIdx

/-- A row `[1, 1024]`, cast to its own shape and repeated down 1024 rows, reads at `(p, h)` the row at `h`. -/
theorem row_apply (v : FVec Ideal S1x1024 .f32) (p h : Fin 1024) :
    broadcastTo S1024x1024 (shapeCast S1x1024 v shapeCasts_S1x1024_S1x1024) broadcasts_S1x1024_S1024x1024 (ix2 p h)
      = v (ix2 (0 : Fin 1) h) :=
  (broadcastTo_1b_ab_apply _ _ p h).trans (congrFun (shapeCast_self v _) _)

/-- One perspective's block through the affine layer: the product with the transposed weights into a zero
    accumulator, plus the bias row. -/
def pre (P : FVec Ideal S1024x768 .f32) (Wt : FVec Ideal S768x1024 .bf16) (B : FVec Ideal S1x1024 .f32) :
    FVec Ideal S1024x1024 .f32 :=
  addf (matmul dot_S1024x768_S768x1024_S1024x1024_1_0_0_1_n_n none (truncf .bf16 P bitsLt_bf16_f32)
      (shapeCast S768x1024 Wt shapeCasts_S768x1024_S768x1024) (constant S1024x1024 .f32 0x00000000#32))
    (broadcastTo S1024x1024 (shapeCast S1x1024 B shapeCasts_S1x1024_S1x1024) broadcasts_S1x1024_S1024x1024)

theorem pre_apply (P : FVec Ideal S1024x768 .f32) (Wt : FVec Ideal S768x1024 .bf16) (B : FVec Ideal S1x1024 .f32)
    (p h : Fin 1024) :
    pre P Wt B (ix2 p h) = (∑ f : Fin 768, P (ix2 p f) * Wt (ix2 f h)) + B (ix2 (0 : Fin 1) h) := by
  unfold pre
  rw [addf_apply, row_apply]
  refine congrArg (· + B (ix2 (0 : Fin 1) h)) ?_
  refine (Cert.LibMatmulNN.matmul_nn_apply dot_S1024x768_S768x1024_S1024x1024_1_0_0_1_n_n rfl rfl rfl rfl rfl rfl none
    (truncf .bf16 P bitsLt_bf16_f32) (shapeCast S768x1024 Wt shapeCasts_S768x1024_S768x1024) p h).trans ?_
  refine Finset.sum_congr rfl fun f _ => ?_
  rw [shapeCast_self]
  rfl

/-- One perspective's weighted row sums, kept as a column: clip, square, multiply by the weight row, sum each row. -/
def half (P : FVec Ideal S1024x768 .f32) (Wt : FVec Ideal S768x1024 .bf16) (B Wh : FVec Ideal S1x1024 .f32) :
    FVec Ideal S1024x1 .f32 :=
  shapeCast S1024x1
    (multiReduction .add [1] S1024
      (mulf
        (mulf
          (minimumf (broadcast S1024x1024 (Scalar.ofBits .f32 0x3F800000#32))
            (maximumf (broadcast S1024x1024 (Scalar.ofBits .f32 0x00000000#32)) (pre P Wt B)))
          (minimumf (broadcast S1024x1024 (Scalar.ofBits .f32 0x3F800000#32))
            (maximumf (broadcast S1024x1024 (Scalar.ofBits .f32 0x00000000#32)) (pre P Wt B))))
        (broadcastTo S1024x1024 (shapeCast S1x1024 Wh shapeCasts_S1x1024_S1x1024) broadcasts_S1x1024_S1024x1024))
      0x00000000#32 reduces_S1024x1024_S1024 (.inl rfl) rfl)
    shapeCasts_S1024_S1024x1

theorem half_apply (P : FVec Ideal S1024x768 .f32) (Wt : FVec Ideal S768x1024 .bf16) (B Wh : FVec Ideal S1x1024 .f32)
    (p : Fin 1024) (u : Fin 1) :
    half P Wt B Wh (ix2 p u)
      = ∑ h : Fin 1024, Spec.clipSq ((∑ f : Fin 768, P (ix2 p f) * Wt (ix2 f h)) + B (ix2 (0 : Fin 1) h))
          * Wh (ix2 (0 : Fin 1) h) := by
  unfold half
  refine (Cert.LibColumns.shapeCast_a_a1_apply _ _ p u).trans ?_
  refine (Cert.LibColumns.multiReduction_add_rows_apply _ _ _ _ _ p).trans ?_
  refine Finset.sum_congr rfl fun h _ => ?_
  rw [mulf_apply, row_apply, ← pre_apply P Wt B p h]
  rfl

/-- The body's column before the output bias is the two perspectives' columns added. -/
theorem pay_eq (P0 P1 : FVec Ideal S1024x768 .f32) (Wt : FVec Ideal S768x1024 .bf16) (B Wa Wb : FVec Ideal S1x1024 .f32) :
    k0_pay2 (F := Ideal) P0 P1 Wt B Wa Wb = addf (half P0 Wt B Wa) (half P1 Wt B Wb) := rfl

/-- The body's column at `(p, 0)`. -/
theorem pay_apply (P0 P1 : FVec Ideal S1024x768 .f32) (Wt : FVec Ideal S768x1024 .bf16) (B Wa Wb : FVec Ideal S1x1024 .f32)
    (p : Fin 1024) (u : Fin 1) :
    k0_pay2 (F := Ideal) P0 P1 Wt B Wa Wb (ix2 p u)
      = (∑ h : Fin 1024, Spec.clipSq ((∑ f : Fin 768, P0 (ix2 p f) * Wt (ix2 f h)) + B (ix2 (0 : Fin 1) h))
            * Wa (ix2 (0 : Fin 1) h))
        + ∑ h : Fin 1024, Spec.clipSq ((∑ f : Fin 768, P1 (ix2 p f) * Wt (ix2 f h)) + B (ix2 (0 : Fin 1) h))
            * Wb (ix2 (0 : Fin 1) h) := by
  rw [pay_eq, addf_apply, half_apply, half_apply]

end Cert.KernelIdeal.Pay

end
-- ==== Proof.Blocks.lean ====
/-
  From the blocks to the whole result array.

  The grid has 16 points; point `t` works on rows `1024·t … 1024·t + 1023`: it loads those rows of the two perspectives,
  the whole of the transposed weights, the bias row, the two halves of the output weights and the output bias (arrays the
  host operations before the region wrote: a transpose of `W1`, `b1` as a row, columns `0 … 1023` and `1024 … 2047` of
  `W2`, `b2` as a `[1, 1]` array), and writes back rows `1024·t …` of the result. So what point `t` writes back is block `t`
  of `Spec.G` of the argument arrays (`flushed_eq`); the 16 blocks cover the 16384 rows (`cover`: row `i` is in block
  `i / 1024`); hence the result array is `Spec.G` (`final`), and the program's run ends there (`run`).
-/
import proofs.«125729_j82386062672602_2_alg».proof.Proof.ValueP
import proofs.«125729_j82386062672602_2_alg».proof.Proof.KernelPay
import proofs.«125729_j82386062672602_2_alg».proof.Proof.Spec
import Idealize.ShloMosaic.Lib.StableHlo.Run
import Idealize.ShloMosaic.Lib.ValueLayout
import Idealize.ShloMosaic.Lib.Pipeline.Value

set_option maxRecDepth 16384

noncomputable section

open scoped BigOperators

namespace Cert.KernelIdeal.Whole

open Cert.KernelIdeal Cert.KernelIdeal.Gen Cert.KernelIdeal.ValueP
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The six argument arrays, and what the host operations before the region make of them -/

abbrev X0 (c : Dev nD) : FVec Ideal S16384x768 .f32 := m ((c : Thread nD τ).loc main_arg0)
abbrev X1 (c : Dev nD) : FVec Ideal S16384x768 .f32 := m ((c : Thread nD τ).loc main_arg1)
abbrev W1 (c : Dev nD) : FVec Ideal S1024x768 .f32 := m ((c : Thread nD τ).loc main_arg2)
abbrev b1 (c : Dev nD) : FVec Ideal S1024 .f32 := m ((c : Thread nD τ).loc main_arg3)
abbrev W2 (c : Dev nD) : FVec Ideal S1x2048 .f32 := m ((c : Thread nD τ).loc main_arg4)
abbrev b2 (c : Dev nD) : FVec Ideal S1 .f32 := m ((c : Thread nD τ).loc main_arg5)

/-- The result array as one function of the arguments. -/
abbrev result (c : Dev nD) : FVec Ideal S16384x1 .f32 :=
  Spec.G (X0 m c) (X1 m c) (W1 m c) (b1 m c) (W2 m c) (b2 m c)

/-- The weights as the region finds them: `W1` transposed (the narrowing to bf16 is the identity here). -/
theorem weights_apply (c : Dev nD) (f : Fin 768) (h : Fin 1024) :
    (V m c main_v1 : FVec Ideal S768x1024 .bf16) (ix2 f h) = W1 m c (ix2 h f) := by
  have e : (V m c main_v1 : FVec Ideal S768x1024 .bf16)
      = truncf .bf16 (transpose S768x1024 [1, 0] (W1 m c) transposes_S1024x768_S768x1024_1_0) bitsLt_bf16_f32 := by
    dsimp only [Gen.V, Gen.hostOps0]; after_results <;> rfl
  rw [e]
  exact transpose_ix2_apply (W1 m c) transposes_S1024x768_S768x1024_1_0 f h

/-- The hidden bias as the region finds it: `b1` as one row. -/
theorem bias_apply (c : Dev nD) (u : Fin 1) (h : Fin 1024) :
    (V m c main_v2 : FVec Ideal S1x1024 .f32) (ix2 u h) = b1 m c (ix1 h) := by
  have e : (V m c main_v2 : FVec Ideal S1x1024 .f32) = shapeCast S1x1024 (b1 m c) shapeCasts_S1024_S1x1024 := by
    dsimp only [Gen.V, Gen.hostOps0]; after_results <;> rfl
  rw [e]
  exact shapeCast_a_1a_apply (b1 m c) shapeCasts_S1024_S1x1024 u h

/-- The first half of the output weights as the region finds it: columns `0 … 1023` of `W2`. -/
theorem wlo_apply (c : Dev nD) (u : Fin 1) (h : Fin 1024) :
    (V m c main_v3 : FVec Ideal S1x1024 .f32) (ix2 u h) = W2 m c (ix2 u (Spec.lo h)) := by
  have e : (V m c main_v3 : FVec Ideal S1x1024 .f32)
      = extractStridedSlice S1x1024 ![0, 0] (W2 m c) slices_S1x2048_S1x1024_0_0 := by
    dsimp only [Gen.V, Gen.hostOps0]; after_results <;> rfl
  rw [e]
  exact slice2_axis1_apply 0 (W2 m c) slices_S1x2048_S1x1024_0_0 u h (Spec.lo h) (Nat.zero_add _).symm

/-- The second half: columns `1024 … 2047` of `W2`. -/
theorem whi_apply (c : Dev nD) (u : Fin 1) (h : Fin 1024) :
    (V m c main_v4 : FVec Ideal S1x1024 .f32) (ix2 u h) = W2 m c (ix2 u (Spec.hi h)) := by
  have e : (V m c main_v4 : FVec Ideal S1x1024 .f32)
      = extractStridedSlice S1x1024 ![0, 1024] (W2 m c) slices_S1x2048_S1x1024_0_1024 := by
    dsimp only [Gen.V, Gen.hostOps0]; after_results <;> rfl
  rw [e]
  exact slice2_axis1_apply 1024 (W2 m c) slices_S1x2048_S1x1024_0_1024 u h (Spec.hi h) rfl

/-- The output bias as the region finds it: `b2` as a `[1, 1]` array. -/
theorem obias_apply (c : Dev nD) (u v : Fin 1) :
    (V m c main_v5 : FVec Ideal S1x1 .f32) (ix2 u v) = b2 m c (ix1 (0 : Fin 1)) := by
  have e : (V m c main_v5 : FVec Ideal S1x1 .f32) = shapeCast S1x1 (b2 m c) shapeCasts_S1_S1x1 := by
    dsimp only [Gen.V, Gen.hostOps0]; after_results <;> rfl
  rw [e, show v = 0 from Subsingleton.elim _ _]
  exact shapeCast_a_1a_apply (b2 m c) shapeCasts_S1_S1x1 u 0

/-! ## The windows' blocks at a point -/

/-- The printed index maps over the 16 grid points: the two perspectives' blocks move with the result's block, whose
    row-block index is the point's number; every other window stays at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the first perspective's block at point `t` is row `1024·t + p` of the argument. -/
theorem blk0_apply (c : Dev nD) (t : Fin cfg0.N) (p : Fin 1024) (f : Fin 768) (R : Fin 16384)
    (hR : R.val = t.val * 1024 + p.val) :
    (iblk m c 0 t : Vec Ideal S1024x768 .f32) (ix2 p f) = X0 m c (ix2 R f) := by
  obtain ⟨e0, e1, -⟩ := idx_facts t
  unfold iblk
  rw [View.read_apply]
  refine (congrFun (V_main_arg0 m c) _).trans (congrArg (X0 m c) (funext fun a => Fin.ext ?_))
  match a with
  | ⟨0, _⟩ => show win0_0.index t (0 : Fin 2) * 1024 + 1 * p.val = R.val; omega
  | ⟨1, _⟩ => show win0_0.index t (1 : Fin 2) * 768 + 1 * f.val = f.val; omega

theorem blk1_apply (c : Dev nD) (t : Fin cfg0.N) (p : Fin 1024) (f : Fin 768) (R : Fin 16384)
    (hR : R.val = t.val * 1024 + p.val) :
    (iblk m c 1 t : Vec Ideal S1024x768 .f32) (ix2 p f) = X1 m c (ix2 R f) := by
  obtain ⟨-, -, e0, e1, -⟩ := idx_facts t
  unfold iblk
  rw [View.read_apply]
  refine (congrFun (V_main_arg1 m c) _).trans (congrArg (X1 m c) (funext fun a => Fin.ext ?_))
  match a with
  | ⟨0, _⟩ => show win0_1.index t (0 : Fin 2) * 1024 + 1 * p.val = R.val; omega
  | ⟨1, _⟩ => show win0_1.index t (1 : Fin 2) * 768 + 1 * f.val = f.val; omega

/-- The weights' one block is the whole transposed array. -/
theorem blk2_apply (c : Dev nD) (t : Fin cfg0.N) (f : Fin 768) (h : Fin 1024) :
    (iblk m c 2 t : Vec Ideal S768x1024 .bf16) (ix2 f h) = W1 m c (ix2 h f) := by
  obtain ⟨-, -, -, -, e0, e1, -⟩ := idx_facts t
  unfold iblk
  rw [View.read_apply]
  refine Eq.trans (congrArg (V m c main_v1 : FVec Ideal S768x1024 .bf16) (funext fun a => Fin.ext ?_)) (weights_apply m c f h)
  match a with
  | ⟨0, _⟩ => show win0_2.index t (0 : Fin 2) * 768 + 1 * f.val = f.val; omega
  | ⟨1, _⟩ => show win0_2.index t (1 : Fin 2) * 1024 + 1 * h.val = h.val; omega

theorem blk3_apply (c : Dev nD) (t : Fin cfg0.N) (h : Fin 1024) :
    (iblk m c 3 t : Vec Ideal S1x1024 .f32) (ix2 (0 : Fin 1) h) = b1 m c (ix1 h) := by
  obtain ⟨-, -, -, -, -, -, e0, e1, -⟩ := idx_facts t
  unfold iblk
  rw [View.read_apply]
  refine Eq.trans (congrArg (V m c main_v2 : FVec Ideal S1x1024 .f32) (funext fun a => Fin.ext ?_)) (bias_apply m c 0 h)
  match a with
  | ⟨0, _⟩ => show win0_3.index t (0 : Fin 2) * 1 + 1 * 0 = 0; omega
  | ⟨1, _⟩ => show win0_3.index t (1 : Fin 2) * 1024 + 1 * h.val = h.val; omega

theorem blk4_apply (c : Dev nD) (t : Fin cfg0.N) (h : Fin 1024) :
    (iblk m c 4 t : Vec Ideal S1x1024 .f32) (ix2 (0 : Fin 1) h) = W2 m c (ix2 (0 : Fin 1) (Spec.lo h)) := by
  obtain ⟨-, -, -, -, -, -, -, -, e0, e1, -⟩ := idx_facts t
  unfold iblk
  rw [View.read_apply]
  refine Eq.trans (congrArg (V m c main_v3 : FVec Ideal S1x1024 .f32) (funext fun a => Fin.ext ?_)) (wlo_apply m c 0 h)
  match a with
  | ⟨0, _⟩ => show win0_4.index t (0 : Fin 2) * 1 + 1 * 0 = 0; omega
  | ⟨1, _⟩ => show win0_4.index t (1 : Fin 2) * 1024 + 1 * h.val = h.val; omega

theorem blk5_apply (c : Dev nD) (t : Fin cfg0.N) (h : Fin 1024) :
    (iblk m c 5 t : Vec Ideal S1x1024 .f32) (ix2 (0 : Fin 1) h) = W2 m c (ix2 (0 : Fin 1) (Spec.hi h)) := by
  obtain ⟨-, -, -, -, -, -, -, -, -, -, e0, e1, -⟩ := idx_facts t
  unfold iblk
  rw [View.read_apply]
  refine Eq.trans (congrArg (V m c main_v4 : FVec Ideal S1x1024 .f32) (funext fun a => Fin.ext ?_)) (whi_apply m c 0 h)
  match a with
  | ⟨0, _⟩ => show win0_5.index t (0 : Fin 2) * 1 + 1 * 0 = 0; omega
  | ⟨1, _⟩ => show win0_5.index t (1 : Fin 2) * 1024 + 1 * h.val = h.val; omega

theorem blk6_apply (c : Dev nD) (t : Fin cfg0.N) :
    (iblk m c 6 t : Vec Ideal S1x1 .f32) (ix2 (0 : Fin 1) (0 : Fin 1)) = b2 m c (ix1 (0 : Fin 1)) := by
  obtain ⟨-, -, -, -, -, -, -, -, -, -, -, -, e0, e1, -⟩ := idx_facts t
  unfold iblk
  rw [View.read_apply]
  refine Eq.trans (congrArg (V m c main_v5 : FVec Ideal S1x1 .f32) (funext fun a => Fin.ext ?_)) (obias_apply m c 0 0)
  match a with
  | ⟨0, _⟩ => show win0_6.index t (0 : Fin 2) * 1 + 1 * 0 = 0; omega
  | ⟨1, _⟩ => show win0_6.index t (1 : Fin 2) * 1 + 1 * 0 = 0; omega

/-! ## What one point leaves in its block, from any seven loaded blocks that read as the arguments do -/

theorem hz : (![0, 0] : Fin 2 → Nat) = fun _ => 0 := funext fun a => by fin_cases a <;> rfl

/-- The body's result at row `p` of its block is the logistic function of row `R`'s score, whenever the loaded blocks
    read, at the entries row `p` depends on, as the argument arrays do at row `R`. -/
theorem out_row (x0 x1 : FVec Ideal S1024x768 .f32) (x2 : FVec Ideal S768x1024 .bf16) (x3 x4 x5 : FVec Ideal S1x1024 .f32)
    (x6 : FVec Ideal S1x1 .f32)
    (A0 A1 : FVec Ideal S16384x768 .f32) (A2 : FVec Ideal S1024x768 .f32) (A3 : FVec Ideal S1024 .f32)
    (A4 : FVec Ideal S1x2048 .f32) (A5 : FVec Ideal S1 .f32)
    (p : Fin 1024) (u : Fin 1) (R : Fin 16384)
    (h0 : ∀ f : Fin 768, x0 (ix2 p f) = A0 (ix2 R f)) (h1 : ∀ f : Fin 768, x1 (ix2 p f) = A1 (ix2 R f))
    (h2 : ∀ (f : Fin 768) (h : Fin 1024), x2 (ix2 f h) = A2 (ix2 h f))
    (h3 : ∀ h : Fin 1024, x3 (ix2 (0 : Fin 1) h) = A3 (ix1 h))
    (h4 : ∀ h : Fin 1024, x4 (ix2 (0 : Fin 1) h) = A4 (ix2 (0 : Fin 1) (Spec.lo h)))
    (h5 : ∀ h : Fin 1024, x5 (ix2 (0 : Fin 1) h) = A4 (ix2 (0 : Fin 1) (Spec.hi h)))
    (h6 : x6 (ix2 (0 : Fin 1) (0 : Fin 1)) = A5 (ix1 (0 : Fin 1))) :
    out0_7 (F := Ideal) x0 x1 x2 x3 x4 x5 x6 (ix2 p u) = Ideal.logistic (Spec.score A0 A1 A2 A3 A4 A5 R) := by
  unfold out0_7
  simp only [View.ld_unit_zero (S := S1024x768) hz, View.ld_unit_zero (S := S768x1024) hz,
    View.ld_unit_zero (S := S1x1024) hz, View.ld_unit_zero (S := S1x1) hz]
  refine (canon7_eq (F := Ideal) x0 x1 x2 x3 x4 x5 x6 (ix2 p u)).trans ?_
  have i0 : ix7_0 (ix2 p u) = ix2 p (0 : Fin 1) :=
    funext fun a => Fin.ext (by match a with | ⟨0, _⟩ => rfl | ⟨1, _⟩ => rfl)
  have i1 : ix7_1 (ix2 p u) = ix2 (0 : Fin 1) (0 : Fin 1) :=
    funext fun a => Fin.ext (by match a with | ⟨0, _⟩ => rfl | ⟨1, _⟩ => rfl)
  show Ideal.logistic (k0_pay2 (F := Ideal) x0 x1 x2 x3 x4 x5 (ix7_0 (ix2 p u)) + x6 (ix7_1 (ix2 p u))) = _
  rw [i0, i1, Pay.pay_apply, h6]
  simp only [h0, h1, h2, h3, h4, h5]
  rfl

/-! ## From the blocks to the array -/

/-- What point `t` writes back is block `t` of the result. -/
theorem flushed_eq (c : Dev nD) (t : Fin cfg0.N) :
    (dats m 0 c).flushed 7 t = ((cfg0.win 7).blk t).view.read (Elt Ideal) (result m c) := by
  rw [flushed7]
  obtain ⟨-, -, -, -, -, -, -, -, -, -, -, -, -, -, e0, e1⟩ := idx_facts t
  have hN : t.val < 16 := t.isLt.trans_eq N_0
  funext j
  obtain ⟨p, u, rfl⟩ : ∃ (p : Fin 1024) (u : Fin 1), j = ix2 p u :=
    ⟨⟨(j 0).val, (j 0).isLt⟩, ⟨(j 1).val, (j 1).isLt⟩,
      funext fun a => Fin.ext (by match a with | ⟨0, _⟩ => rfl | ⟨1, _⟩ => rfl)⟩
  have hp : p.val < 1024 := p.isLt
  have hu : u.val < 1 := u.isLt
  have hemb : ((cfg0.win 7).blk t).view.emb (ix2 p u)
      = ix2 (⟨t.val * 1024 + p.val, by omega⟩ : Fin 16384) u :=
    funext fun a => Fin.ext (by
      match a with
      | ⟨0, _⟩ => show win0_7.index t (0 : Fin 2) * 1024 + 1 * p.val = t.val * 1024 + p.val; omega
      | ⟨1, _⟩ => show win0_7.index t (1 : Fin 2) * 1 + 1 * u.val = u.val; omega)
  show out0_7 (F := Ideal) (iblk m c 0 t) (iblk m c 1 t) (iblk m c 2 t) (iblk m c 3 t) (iblk m c 4 t) (iblk m c 5 t) (iblk m c 6 t) (ix2 p u)
    = result m c (((cfg0.win 7).blk t).view.emb (ix2 p u))
  rw [hemb]
  exact out_row (iblk m c 0 t) (iblk m c 1 t) (iblk m c 2 t) (iblk m c 3 t) (iblk m c 4 t) (iblk m c 5 t) (iblk m c 6 t)
    (X0 m c) (X1 m c) (W1 m c) (b1 m c) (W2 m c) (b2 m c) p u ⟨t.val * 1024 + p.val, by omega⟩
    (fun f => blk0_apply m c t _ f _ rfl) (fun f => blk1_apply m c t _ f _ rfl)
    (fun f h => blk2_apply m c t f h) (fun h => blk3_apply m c t h) (fun h => blk4_apply m c t h)
    (fun h => blk5_apply m c t h) (blk6_apply m c t)

/-- An index of the result array is in point `t`'s block iff each coordinate is in the block's range. -/
theorem mem_blk (t : Fin cfg0.N) (i : S16384x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v6).slice (win0_7.rect t)).set ↔ _
  rw [View.set_slice_whole, Rect.mem_set_unit]
  exact Iff.rfl

/-- Row `i` of the result is in the block of point `i / 1024`. -/
theorem cover (i : S16384x1.Idx) :
    ∃ t : Fin cfg0.N, (cfg0.win 7).flush t = true ∧ i ∈ ((cfg0.win 7).blk t).view.set := by
  have hi0 : (i 0).val < 16384 := (i 0).isLt
  have hi1 : (i 1).val < 1 := (i 1).isLt
  have hq : (i 0).val / 1024 < cfg0.N := by rw [show cfg0.N = 16 from N_0]; omega
  obtain ⟨-, -, -, -, -, -, -, -, -, -, -, -, -, -, e0, e1⟩ := idx_facts ⟨(i 0).val / 1024, hq⟩
  refine ⟨⟨(i 0).val / 1024, hq⟩, flush0_7 _, ?_⟩
  rw [mem_blk]
  intro a
  match a with
  | ⟨0, _⟩ =>
    show win0_7.index ⟨(i 0).val / 1024, hq⟩ (0 : Fin 2) * 1024 ≤ (i 0).val
      ∧ (i 0).val < win0_7.index ⟨(i 0).val / 1024, hq⟩ (0 : Fin 2) * 1024 + 1024
    rw [e0]
    show (i 0).val / 1024 * 1024 ≤ (i 0).val ∧ (i 0).val < (i 0).val / 1024 * 1024 + 1024
    omega
  | ⟨1, _⟩ =>
    show win0_7.index ⟨(i 0).val / 1024, hq⟩ (1 : Fin 2) * 1 ≤ (i 1).val
      ∧ (i 1).val < win0_7.index ⟨(i 0).val / 1024, hq⟩ (1 : Fin 2) * 1 + 1
    rw [e1]
    omega

/-- The result array after the run. -/
theorem final (c : Dev nD) : (dats m 0 c).arrAt 7 cfg0.N = result m c :=
  (dats m 0 c).arrAt_eq_of_cover 7 (result m c) (fun t _ => flushed_eq m c t) cover

/-- The program's run, read: the result array ends at `Spec.G` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.RefIsG.lean ====
/-
  The reference program's result is `Spec.G` of its six arguments.

  Its stages, read one at a time: the two affine layers (a contraction over the 768 features plus the bias row), their
  rows laid side by side into 2048 columns, the clip and the square, one contraction of those 2048 columns with `W2`'s
  single row, the output bias, and `1 / (1 + exp (−z))`. At an index of the first 1024 columns the joined row reads the
  first perspective's hidden value, at column `1024 + h` the second's at `h`; so the contraction over 2048 splits into
  the two half sums of `Spec.score` (`Spec.sum_halves`), and `1 / (1 + exp (−z))` is the logistic function as the exact
  operations define it.
-/
import proofs.«125729_j82386062672602_2_alg».proof.Proof.Gen.ReferenceIdeal.Read
import proofs.«125729_j82386062672602_2_alg».proof.Proof.Spec
import Idealize.ShloMosaic.Lib.IdealHost

noncomputable section

open scoped BigOperators

namespace Cert.RefValue

open Cert.ReferenceIdeal Cert.ReferenceIdeal.Gen Cert.ReferenceIdeal.Read
open Idealize.ShloMosaic Idealize.ShloMosaic.ValueIdx

variable (x0 x1 : FVec Ideal S16384x768 .f32) (x2 : FVec Ideal S1024x768 .f32) (x3 : FVec Ideal S1024 .f32)
  (x4 : FVec Ideal S1x2048 .f32) (x5 : FVec Ideal S1 .f32)

/-- One perspective's affine layer at `(r, h)`: the contraction over the features plus the bias. -/
theorem affine0_apply (r : Fin 16384) (h : Fin 1024) :
    val_main_v3 (F := Ideal) x0 x2 x3 (ix2 r h) = Spec.hid x0 x2 x3 r h := by
  rw [val_main_v3_apply, val_main_v0_apply, val_main_v2_apply, val_main_v1_apply]
  have el : ∀ k : Fin 768, lidx_main_v0 (ix2 r h) k = ix2 r k := fun k =>
    funext fun a => Fin.ext (by match a with | ⟨0, _⟩ => rfl | ⟨1, _⟩ => rfl)
  have er : ∀ k : Fin 768, ridx_main_v0 (ix2 r h) k = ix2 h k := fun k =>
    funext fun a => Fin.ext (by match a with | ⟨0, _⟩ => rfl | ⟨1, _⟩ => rfl)
  have eb : idx_main_v1 (idx_main_v2 (ix2 r h)) = ix1 h :=
    funext fun a => Fin.ext (by match a with | ⟨0, _⟩ => rfl)
  simp only [el, er, eb]
  rfl

theorem affine1_apply (r : Fin 16384) (h : Fin 1024) :
    val_main_v7 (F := Ideal) x1 x2 x3 (ix2 r h) = Spec.hid x1 x2 x3 r h := by
  rw [val_main_v7_apply, val_main_v4_apply, val_main_v6_apply, val_main_v5_apply]
  have el : ∀ k : Fin 768, lidx_main_v4 (ix2 r h) k = ix2 r k := fun k =>
    funext fun a => Fin.ext (by match a with | ⟨0, _⟩ => rfl | ⟨1, _⟩ => rfl)
  have er : ∀ k : Fin 768, ridx_main_v4 (ix2 r h) k = ix2 h k := fun k =>
    funext fun a => Fin.ext (by match a with | ⟨0, _⟩ => rfl | ⟨1, _⟩ => rfl)
  have eb : idx_main_v5 (idx_main_v6 (ix2 r h)) = ix1 h :=
    funext fun a => Fin.ext (by match a with | ⟨0, _⟩ => rfl)
  simp only [el, er, eb]
  rfl

/-- The joined row at a column of its first half is the first perspective's hidden value. -/
theorem joined_lo (r : Fin 16384) (h : Fin 1024) :
    val_main_v8 (F := Ideal) x0 x1 x2 x3 (ix2 r (Spec.lo h)) = Spec.hid x0 x2 x3 r h := by
  unfold val_main_v8
  refine (concatenate_pair_apply_left (1 : Fin 2) (val_main_v3 (F := Ideal) x0 x2 x3) (val_main_v7 (F := Ideal) x1 x2 x3) _
    (ix2 r (Spec.lo h)) rfl (ix2 r h) (fun b => ?_)).trans
    (affine0_apply x0 x2 x3 r h)
  match b with
  | ⟨0, _⟩ => rfl
  | ⟨1, _⟩ => rfl

/-- The joined row at column `1024 + h` is the second perspective's hidden value at `h`. -/
theorem joined_hi (r : Fin 16384) (h : Fin 1024) :
    val_main_v8 (F := Ideal) x0 x1 x2 x3 (ix2 r (Spec.hi h)) = Spec.hid x1 x2 x3 r h := by
  unfold val_main_v8
  refine (concatenate_pair_apply_right (1 : Fin 2) (val_main_v3 (F := Ideal) x0 x2 x3) (val_main_v7 (F := Ideal) x1 x2 x3) _
    (ix2 r (Spec.hi h)) rfl rfl (ix2 r h) (fun b hb => ?_) ?_).trans
    (affine1_apply x1 x2 x3 r h)
  · match b with
    | ⟨0, _⟩ => rfl
    | ⟨1, _⟩ => exact absurd rfl hb
  · show h.val + 1024 = 1024 + h.val
    omega

/-- The clip and the square, at any index of the joined array. -/
theorem act_apply (j : S16384x2048.Idx) :
    val_main_v10 (F := Ideal) x0 x1 x2 x3 j = Spec.clipSq (val_main_v8 (F := Ideal) x0 x1 x2 x3 j) := by
  rw [val_main_v10_apply, val_main_v9_apply, val_main_call0_v4_apply, val_main_call0_v3_apply, val_main_cst_0_apply,
    val_main_call0_v2_apply, val_main_call0_v1_apply, val_main_call0_v0_apply, val_main_cst_apply]
  rfl

/-- The logistic function's argument, row by row: the contraction over the 2048 joined columns is the two half sums. -/
theorem score_apply (r : Fin 16384) (u : Fin 1) :
    val_main_v14 (F := Ideal) x0 x1 x2 x3 x4 x5 (ix2 r u) = Spec.score x0 x1 x2 x3 x4 x5 r := by
  rw [val_main_v14_apply, val_main_v11_apply, val_main_v13_apply, val_main_v12_apply, Spec.sum_halves]
  have hu : u = 0 := Subsingleton.elim _ _
  subst hu
  have el : ∀ k : Fin 2048, lidx_main_v11 (ix2 r (0 : Fin 1)) k = ix2 r k := fun k =>
    funext fun a => Fin.ext (by match a with | ⟨0, _⟩ => rfl | ⟨1, _⟩ => rfl)
  have er : ∀ k : Fin 2048, ridx_main_v11 (ix2 r (0 : Fin 1)) k = ix2 (0 : Fin 1) k := fun k =>
    funext fun a => Fin.ext (by match a with | ⟨0, _⟩ => rfl | ⟨1, _⟩ => rfl)
  have eb : idx_main_v12 (idx_main_v13 (ix2 r (0 : Fin 1))) = ix1 (0 : Fin 1) :=
    funext fun a => Fin.ext (by match a with | ⟨0, _⟩ => rfl)
  simp only [el, er, eb, act_apply, joined_lo, joined_hi]
  rfl

/-- The reference's last stage is `Spec.G`. -/
theorem result_eq : val_main_v20 (F := Ideal) x0 x1 x2 x3 x4 x5 = Spec.G x0 x1 x2 x3 x4 x5 := by
  funext i
  obtain ⟨r, u, rfl⟩ : ∃ (r : Fin 16384) (u : Fin 1), i = ix2 r u := ⟨i 0, i 1, eq_ix2 i⟩
  rw [Spec.G_apply, val_main_v20_apply, val_main_v19_apply, val_main_cst_2_apply, val_main_v18_apply, val_main_v17_apply,
    val_main_cst_1_apply, val_main_v16_apply, val_main_v15_apply, score_apply]
  simp only [Ideal.ofBits_def, Ideal.ofBits_one_f32]
  rfl

end Cert.RefValue

end
-- ==== Proof.lean ====
/-
  A two-perspective accumulator network (an affine layer shared by two feature rows, a clipped square, one output neuron,
  the logistic function), as a kernel tiled over 16 blocks of 1024 rows and as a plain array program: equal results over
  the extended reals.

  Both compute, for each of the 16384 rows `r`,
    `logistic ((Σ_h a(X0, r, h) · W2(0, h) + Σ_h a(X1, r, h) · W2(0, 1024 + h)) + b2)`,  `h` over 1024 hidden units,
  with `a(X, r, h) = clip₀¹ (Σ_f X(r, f) · W1(h, f) + b1(h))²` (Proof/Spec.lean, `Spec.G`).
  • The kernel (Proof/KernelPay.lean, Proof/Blocks.lean) multiplies each block of rows by `W1` transposed, which the host
    operations before the region prepared, and forms the two half sums as lane sums against the two halves of `W2`.
  • The reference (Proof/RefIsG.lean) lays the two hidden rows side by side into 2048 columns and contracts them with
    `W2`'s one row; a sum over 2048 positions is the sum over the first 1024 plus the sum over the last 1024, in any
    commutative monoid, so nothing here needs the inputs to be finite. Its `1 / (1 + exp (−z))` is the logistic function
    as the exact operations define it.
  Every change of float format is the identity on the extended reals, and the idealization rewrote no operation, so that
  the idealized kernel is the printed kernel's own text (`preserves` is `True`). The three frame claims are the generated
  frame certificates, and for the reference its generated run with the result dropped.
-/
import proofs.«125729_j82386062672602_2_alg».proof.Defs
import proofs.«125729_j82386062672602_2_alg».proof.Proof.Gen.Kernel
import proofs.«125729_j82386062672602_2_alg».proof.Proof.Gen.Kernel.Skeleton
import proofs.«125729_j82386062672602_2_alg».proof.Proof.Gen.Kernel.Launch
import proofs.«125729_j82386062672602_2_alg».proof.Proof.Gen.Kernel.Points
import proofs.«125729_j82386062672602_2_alg».proof.Proof.Gen.Kernel.Frame
import proofs.«125729_j82386062672602_2_alg».proof.Proof.Gen.KernelIdeal
import proofs.«125729_j82386062672602_2_alg».proof.Proof.Gen.KernelIdeal.Skeleton
import proofs.«125729_j82386062672602_2_alg».proof.Proof.Gen.KernelIdeal.Launch
import proofs.«125729_j82386062672602_2_alg».proof.Proof.Gen.KernelIdeal.Points
import proofs.«125729_j82386062672602_2_alg».proof.Proof.Gen.KernelIdeal.Frame
import proofs.«125729_j82386062672602_2_alg».proof.Proof.Gen.ReferenceIdeal
import proofs.«125729_j82386062672602_2_alg».proof.Proof.Gen.Pre_finite_inputs
import proofs.«125729_j82386062672602_2_alg».proof.Proof.Gen.ReferenceIdeal.Run
import proofs.«125729_j82386062672602_2_alg».proof.Proof.Gen.ReferenceIdeal.Read
import proofs.«125729_j82386062672602_2_alg».proof.Proof.ValueP
import proofs.«125729_j82386062672602_2_alg».proof.Proof.Blocks
import proofs.«125729_j82386062672602_2_alg».proof.Proof.RefIsG
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Over the extended reals the kernel's result array and the reference's are both `Spec.G` of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v20_eq, Cert.RefValue.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
